-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  main_v3
-- ==== Kernel.lean ====
abbrev S8388608x3 : Shape := ⟨2, ![8388608, 3]⟩
abbrev S8388608x9 : Shape := ⟨2, ![8388608, 9]⟩
abbrev S2048x3 : Shape := ⟨2, ![2048, 3]⟩
abbrev S2048x9 : Shape := ⟨2, ![2048, 9]⟩
abbrev S2048x1 : Shape := ⟨2, ![2048, 1]⟩
abbrev S2048 : Shape := ⟨1, ![2048]⟩
abbrev S8388608x3x3 : Shape := ⟨3, ![8388608, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S8388608x3, .f32⟩
  | .hbm, ⟨1, _⟩ => ⟨S8388608x9, .f32⟩
  | .hbm, ⟨2, _⟩ => ⟨S8388608x3x3, .f32⟩
  | .local _ .vmem, ⟨0, _⟩ => ⟨S2048x3, .f32⟩
  | .local _ .vmem, ⟨1, _⟩ => ⟨S2048x3, .f32⟩
  | .local _ .vmem, ⟨2, _⟩ => ⟨S2048x9, .f32⟩
  | .local _ .vmem, ⟨3, _⟩ => ⟨S2048x9, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x3_S2048x3_0_0 : ∀ a, (![0, 0] : Fin 2 → Nat) a + S2048x3.size a ≤ S2048x3.size a
  h_S2048x3 : 0 < S2048x3.numel
  slices_S2048x3_o0_0_S2048x1 : S2048x3.Slices ![0, 0] S2048x1
  shapeCasts_S2048x1_S2048 : S2048x1.ShapeCasts S2048
  slices_S2048x3_o0_1_S2048x1 : S2048x3.Slices ![0, 1] S2048x1
  slices_S2048x3_o0_2_S2048x1 : S2048x3.Slices ![0, 2] S2048x1
  shapeCasts_S2048_S2048x1 : S2048.ShapeCasts S2048x1
  concatenates_S2048x1_S2048x1_S2048x1_S2048x1_S2048x1_S2048x1_S2048x1_S2048x1_S2048x1_S2048x9_d1 : Shape.Concatenates [S2048x1, S2048x1, S2048x1, S2048x1, S2048x1, S2048x1, S2048x1, S2048x1, S2048x1] S2048x9 1
  inb_S2048x9_S2048x9_0_0 : ∀ a, (![0, 0] : Fin 2 → Nat) a + S2048x9.size a ≤ S2048x9.size a
  h_S2048x9 : 0 < S2048x9.numel
  shapeCasts_S8388608x9_S8388608x3x3 : S8388608x9.ShapeCasts S8388608x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S8388608x3.size a
  hwx0_0 : ∀ i : grid0.Coords, EltTy.bits .f32 = 32 ∨ (Rect.block (s := S8388608x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x9.size a ≤ S8388608x9.size a
  hwx0_1 : ∀ i : grid0.Coords, EltTy.bits .f32 = 32 ∨ (Rect.block (s := S8388608x9) S2048x9.size (cc0_transform_1 i) (hinb0_1 i)).WholeWords (EltTy.packing .f32)

variable [Facts₀]

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608x1 : Shape := ⟨2, ![8388608, 1]⟩
abbrev S8388608 : Shape := ⟨1, ![8388608]⟩
abbrev S_ : Shape := ⟨0, ![]⟩
abbrev S8388608x1x3 : Shape := ⟨3, ![8388608, 1, 3]⟩
abbrev S8388608x3x3 : Shape := ⟨3, ![8388608, 3, 3]⟩

abbrev nBuf : Space → Nat
  | .hbm => 69
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S_, .f32⟩
  | .hbm, ⟨11, _⟩ => ⟨S8388608, .f32⟩
  | .hbm, ⟨12, _⟩ => ⟨S8388608, .f32⟩
  | .hbm, ⟨13, _⟩ => ⟨S8388608, .f32⟩
  | .hbm, ⟨14, _⟩ => ⟨S8388608, .f32⟩
  | .hbm, ⟨15, _⟩ => ⟨S_, .f32⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S_, .f32⟩
  | .hbm, ⟨31, _⟩ => ⟨S8388608, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S_, .f32⟩
  | .hbm, ⟨38, _⟩ => ⟨S8388608, .f32⟩
  | .hbm, ⟨39, _⟩ => ⟨S8388608, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S_, .f32⟩
  | .hbm, ⟨50, _⟩ => ⟨S8388608, .f32⟩
  | .hbm, ⟨51, _⟩ => ⟨S_, .f32⟩
  | .hbm, ⟨52, _⟩ => ⟨S8388608, .f32⟩
  | .hbm, ⟨53, _⟩ => ⟨S8388608x1, .f32⟩
  | .hbm, ⟨54, _⟩ => ⟨S8388608x1, .f32⟩
  | .hbm, ⟨55, _⟩ => ⟨S8388608x1, .f32⟩
  | .hbm, ⟨56, _⟩ => ⟨S8388608x3, .f32⟩
  | .hbm, ⟨57, _⟩ => ⟨S8388608x1, .f32⟩
  | .hbm, ⟨58, _⟩ => ⟨S8388608x1, .f32⟩
  | .hbm, ⟨59, _⟩ => ⟨S8388608x1, .f32⟩
  | .hbm, ⟨60, _⟩ => ⟨S8388608x3, .f32⟩
  | .hbm, ⟨61, _⟩ => ⟨S8388608x1, .f32⟩
  | .hbm, ⟨62, _⟩ => ⟨S8388608x1, .f32⟩
  | .hbm, ⟨63, _⟩ => ⟨S8388608x1, .f32⟩
  | .hbm, ⟨64, _⟩ => ⟨S8388608x3, .f32⟩
  | .hbm, ⟨65, _⟩ => ⟨S8388608x1x3, .f32⟩
  | .hbm, ⟨66, _⟩ => ⟨S8388608x1x3, .f32⟩
  | .hbm, ⟨67, _⟩ => ⟨S8388608x1x3, .f32⟩
  | .hbm, ⟨68, _⟩ => ⟨S8388608x3x3, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_6 : Ref sig .tc := ⟨.hbm, 49, rfl⟩
abbrev main_v41 : Ref sig .tc := ⟨.hbm, 50, rfl⟩
abbrev main_cst_7 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]

class Facts₀ : Prop where
  slices_S8388608x3_S8388608x1_0_0 : S8388608x3.Slices ![0, 0] S8388608x1
  shapeCasts_S8388608x1_S8388608 : S8388608x1.ShapeCasts S8388608
  slices_S8388608x3_S8388608x1_0_1 : S8388608x3.Slices ![0, 1] S8388608x1
  slices_S8388608x3_S8388608x1_0_2 : S8388608x3.Slices ![0, 2] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x3_d1 : Shape.Concatenates [S8388608x1, S8388608x1, S8388608x1] S8388608x3 1
  bcast_S8388608x3_S8388608x1x3_0_2 : S8388608x3.BroadcastsInDim S8388608x1x3 (![0, 2] : Fin 2 → Fin S8388608x1x3.rank)
  concatenates_S8388608x1x3_S8388608x1x3_S8388608x1x3_S8388608x3x3_d1 : Shape.Concatenates [S8388608x1x3, S8388608x1x3, S8388608x1x3] S8388608x3x3 1

variable [Facts₀]

class Facts : Prop extends Facts₀ where

variable [Facts]
-- ==== Proof.Se2Exp.lean ====
/-
  The exponential map of SE(2) in closed form, one row at a time, over the extended reals.

  A row `(x, y, w)` — a translation direction and a yaw rate — is sent to the 3×3 matrix
      ⎡ 1 − B·θ²    −A·w     tX ⎤
      ⎢   A·w     1 − B·θ²   tY ⎥
      ⎣    0         0        1 ⎦
  with θ² = w·w, θ = √θ², and the three guarded coefficients
      A = sin θ / (θ + ε),   B = (1 − cos θ) / (θ² + ε),   C = (1 − A) / (θ² + ε),
  and the translation `(tX, tY) = V·(x, y)`, `V = [[1 − C·θ², −B·w], [B·w, 1 − C·θ²]]`.
  Every operation is the extended reals' own (`Ideal.sqrt`, `Ideal.sin`, `Ideal.cos`, `Ideal.div`), so the
  formulas make sense — and are compared — at the infinities too; no law of real arithmetic is used below
  beyond `0 − a = −a`.

  `entry x y w k` is entry `k` of that matrix in row-major order, and `mats u` the array whose row `r` holds
  the nine entries of the matrix of row `r` of `u`.
-/
import Idealize.ShloMosaic.PureOps.Ideal
import Idealize.ShloMosaic.PureOps.Ideal.Laws
import Idealize.ShloMosaic.Lib.ValueIdx

noncomputable section

namespace Cert.Se2Exp

open Idealize.ShloMosaic Idealize.ShloMosaic.ValueIdx

/-- The guard ε added to every denominator: the single-precision word nearest to 1e-5, read exactly. -/
def eps : EReal := Ideal.ofBits .f32 0x3727C5AC#32
/-- The word of 1.0. -/
def one : EReal := Ideal.ofBits .f32 0x3F800000#32
/-- The word of 0.0. -/
def zero : EReal := Ideal.ofBits .f32 0x00000000#32

theorem zero_eq : zero = 0 := Ideal.ofBits_zero_f32

/-- θ² = w·w. -/
def angSq (w : EReal) : EReal := w * w
/-- θ = √(w·w), the rotation angle's magnitude. -/
def ang (w : EReal) : EReal := Ideal.sqrt (angSq w)
/-- A = sin θ / (θ + ε). -/
def cA (w : EReal) : EReal := Ideal.div (Ideal.sin (ang w)) (ang w + eps)
/-- B = (1 − cos θ) / (θ² + ε). -/
def cB (w : EReal) : EReal := Ideal.div (one - Ideal.cos (ang w)) (angSq w + eps)
/-- C = (1 − A) / (θ² + ε). -/
def cC (w : EReal) : EReal := Ideal.div (one - cA w) (angSq w + eps)

/-- The rotation block's diagonal, 1 − B·θ². -/
def rotDiag (w : EReal) : EReal := one - cB w * angSq w
/-- The rotation block's upper off-diagonal entry, −A·w. -/
def rotUp (w : EReal) : EReal := -(cA w) * w
/-- The rotation block's lower off-diagonal entry, A·w. -/
def rotLow (w : EReal) : EReal := cA w * w
/-- The diagonal of V, 1 − C·θ². -/
def vDiag (w : EReal) : EReal := one - cC w * angSq w
/-- V's upper off-diagonal entry, −B·w. -/
def vUp (w : EReal) : EReal := -(cB w) * w
/-- V's lower off-diagonal entry, B·w. -/
def vLow (w : EReal) : EReal := cB w * w
/-- The translation's first coordinate, (1 − C·θ²)·x + (−B·w)·y. -/
def trX (x y w : EReal) : EReal := vDiag w * x + vUp w * y
/-- The translation's second coordinate, (B·w)·x + (1 − C·θ²)·y. -/
def trY (x y w : EReal) : EReal := vLow w * x + vDiag w * y

/-- A negation written as a difference from the zero word: `0 − a = −a` on every extended real (the extended reals'
    subtraction is addition of the negative, and `0` is neutral for their addition, infinities included). -/
theorem zero_sub_eq (a : EReal) : zero - a = -a := by rw [zero_eq, zero_sub]

/-- Entry `k` (row-major, `k = 3·i + j`) of the matrix of the row `(x, y, w)`. -/
def entry (x y w : EReal) : ℕ → EReal
  | 0 => rotDiag w
  | 1 => rotUp w
  | 2 => trX x y w
  | 3 => rotLow w
  | 4 => rotDiag w
  | 5 => trY x y w
  | 6 => zero
  | 7 => zero
  | _ => one

/-- The array of matrices: row `r` holds, in row-major order, the nine entries of the matrix of row `r` of `u`. -/
def mats {n : ℕ} (u : (⟨2, ![n, 3]⟩ : Shape).Idx → EReal) : (⟨2, ![n, 9]⟩ : Shape).Idx → EReal := fun j =>
  entry (u (ix2 (j 0) 0)) (u (ix2 (j 0) 1)) (u (ix2 (j 0) 2)) (j 1).val

theorem mats_apply {n : ℕ} (u : (⟨2, ![n, 3]⟩ : Shape).Idx → EReal) (r : Fin n) (k : Fin 9) :
    mats u (ix2 r k) = entry (u (ix2 r 0)) (u (ix2 r 1)) (u (ix2 r 2)) k.val := rfl

end Cert.Se2Exp

end
-- ==== Proof.KernelBlock.lean ====
/-
  What the kernel body leaves in its output block, as a function of its input block.

  The body loads a block of 2048 rows `(x, y, w)`, takes the three columns apart, computes the nine matrix entries of
  every row with pointwise operations, lays them side by side as the nine columns of a 2048×9 block and stores that
  block whole. So entry `(r, k)` of the stored block is entry `k` of the matrix of row `r`: the block is
  `Se2Exp.mats` of the input block. The only step that is not a reading of definitions is the kernel's way of
  negating, `0 − a`, which is `−a` on every extended real.
-/
import proofs.«113535_j66649302499847_2_alg».proof.Proof.Gen.KernelIdeal.Frame
import proofs.«113535_j66649302499847_2_alg».proof.Proof.Se2Exp
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.ShloMosaic.ValueIdx
open Cert.Se2Exp

theorem hz : (![0, 0] : Fin 2 → Nat) = fun _ => 0 := funext fun a => by fin_cases a <;> rfl

/-! ## The three columns of the input block -/

/-- Column `q` of a 2048×3 block, sliced out as a 2048×1 block and flattened, holds at `r` the block's entry `(r, q)`. -/
theorem column_apply (x0 : Vec Ideal S2048x3 .f32) (q : Fin 3) (hs : S2048x3.Slices ![0, q.val] S2048x1)
    (hc : S2048x1.ShapeCasts S2048) (r : Fin 2048) :
    shapeCast S2048 (extractStridedSlice S2048x1 ![0, q.val] x0 hs) hc (ix1 r) = x0 (ix2 r q) := by
  refine (shapeCast_apply _ hc (ix1 r) (ix2 r (0 : Fin 1)) ?_).trans ?_
  · rw [Shape.rowMajor_val_two, Shape.rowMajor_val_one]
    show r.val * 1 + 0 = r.val
    omega
  · exact extractStridedSlice_apply ![0, q.val] x0 hs (ix2 r (0 : Fin 1)) (ix2 r q) (fun a => match a with
      | ⟨0, _⟩ => by show r.val = 0 + r.val; omega
      | ⟨1, _⟩ => by show q.val = q.val + 0; omega)

theorem colX (x0 : Vec Ideal S2048x3 .f32) (r : Fin 2048) : k0_pay2 x0 (ix1 r) = x0 (ix2 r 0) :=
  column_apply x0 0 _ _ r
theorem colY (x0 : Vec Ideal S2048x3 .f32) (r : Fin 2048) : k0_pay3 x0 (ix1 r) = x0 (ix2 r 1) :=
  column_apply x0 1 _ _ r
theorem colW (x0 : Vec Ideal S2048x3 .f32) (r : Fin 2048) : k0_pay4 x0 (ix1 r) = x0 (ix2 r 2) :=
  column_apply x0 2 _ _ r

/-! ## Nine flattened columns laid side by side -/

/-- Nine vectors of length 2048, each cast to a 2048×1 column, concatenated along the second axis: entry `(r, k)` of the
    2048×9 result is entry `r` of vector `k`. -/
theorem columns9_apply {α : Type} (v : Fin 9 → (S2048.Idx → α)) (hc : S2048.ShapeCasts S2048x1)
    (h : Shape.Concatenates [S2048x1, S2048x1, S2048x1, S2048x1, S2048x1, S2048x1, S2048x1, S2048x1, S2048x1] S2048x9 1)
    (r : Fin 2048) (k : Fin 9) :
    concatenate S2048x9 1 [⟨S2048x1, shapeCast S2048x1 (v 0) hc⟩, ⟨S2048x1, shapeCast S2048x1 (v 1) hc⟩,
      ⟨S2048x1, shapeCast S2048x1 (v 2) hc⟩, ⟨S2048x1, shapeCast S2048x1 (v 3) hc⟩, ⟨S2048x1, shapeCast S2048x1 (v 4) hc⟩,
      ⟨S2048x1, shapeCast S2048x1 (v 5) hc⟩, ⟨S2048x1, shapeCast S2048x1 (v 6) hc⟩, ⟨S2048x1, shapeCast S2048x1 (v 7) hc⟩,
      ⟨S2048x1, shapeCast S2048x1 (v 8) hc⟩] h (ix2 r k) = v k (ix1 r) := by
  refine (concatenate_ofFn_unit_apply (t := S2048x9) (s₁ := S2048x1) 1 (fun n : Fin 9 => shapeCast S2048x1 (v n) hc) h rfl rfl
    (ix2 r k) k rfl (ix2 r (0 : Fin 1)) ?_).trans ?_
  · intro b hb
    match b with
    | ⟨0, _⟩ => rfl
    | ⟨1, _⟩ => exact absurd rfl hb
  · refine shapeCast_apply (v k) hc (ix2 r (0 : Fin 1)) (ix1 r) ?_
    rw [Shape.rowMajor_val_one, Shape.rowMajor_val_two]
    show r.val = r.val * 1 + 0
    omega

/-! ## The body's arithmetic, entry by entry -/

variable (x0 : Vec Ideal S2048x3 .f32) (i : S2048.Idx)

theorem angSq_at : k0_pay5 x0 i = angSq (k0_pay4 x0 i) := rfl
theorem ang_at : k0_pay6 x0 i = ang (k0_pay4 x0 i) := rfl
theorem cA_at : k0_pay7 x0 i = cA (k0_pay4 x0 i) := rfl
theorem cB_at : k0_pay8 x0 i = cB (k0_pay4 x0 i) := rfl
theorem rotDiag_at : k0_pay9 x0 i = rotDiag (k0_pay4 x0 i) := rfl
/-- The kernel negates A as `0 − A`. -/
theorem rotUp_at : k0_pay10 x0 i = rotUp (k0_pay4 x0 i) := by
  show (zero - cA (k0_pay4 x0 i)) * k0_pay4 x0 i = -(cA (k0_pay4 x0 i)) * k0_pay4 x0 i
  rw [zero_sub_eq]
theorem rotLow_at : k0_pay11 x0 i = rotLow (k0_pay4 x0 i) := rfl
theorem vDiag_at : k0_pay12 x0 i = vDiag (k0_pay4 x0 i) := rfl
/-- The kernel negates B as `0 − B`. -/
theorem trX_at : k0_pay13 x0 i = trX (k0_pay2 x0 i) (k0_pay3 x0 i) (k0_pay4 x0 i) := by
  show vDiag (k0_pay4 x0 i) * k0_pay2 x0 i + (zero - cB (k0_pay4 x0 i)) * k0_pay4 x0 i * k0_pay3 x0 i
    = vDiag (k0_pay4 x0 i) * k0_pay2 x0 i + -(cB (k0_pay4 x0 i)) * k0_pay4 x0 i * k0_pay3 x0 i
  rw [zero_sub_eq]
theorem trY_at : k0_pay14 x0 i = trY (k0_pay2 x0 i) (k0_pay3 x0 i) (k0_pay4 x0 i) := rfl
theorem zero_at : k0_pay15 (F := Ideal) i = zero := rfl
theorem one_at : k0_pay16 (F := Ideal) i = one := rfl

/-! ## The block -/

/-- Entry `(r, k)` of what the body stores is entry `k` of the matrix of row `r` of what it loaded. -/
theorem block_apply (r : Fin 2048) (k : Fin 9) :
    out0_1 x0 (ix2 r k) = entry (x0 (ix2 r 0)) (x0 (ix2 r 1)) (x0 (ix2 r 2)) k.val := by
  unfold out0_1
  rw [View.canon_unit_zero hz]
  simp only [View.ld_unit_zero (S := S2048x3) hz]
  unfold k0_pay1
  refine (columns9_apply ![k0_pay9 x0, k0_pay10 x0, k0_pay13 x0, k0_pay11 x0, k0_pay9 x0, k0_pay14 x0,
    k0_pay15 (F := Ideal), k0_pay15 (F := Ideal), k0_pay16 (F := Ideal)] _ _ r k).trans ?_
  match k with
  | ⟨0, _⟩ => exact (rotDiag_at x0 _).trans (congrArg rotDiag (colW x0 r))
  | ⟨1, _⟩ => exact (rotUp_at x0 _).trans (congrArg rotUp (colW x0 r))
  | ⟨2, _⟩ => exact (trX_at x0 _).trans (by rw [colX, colY, colW]; rfl)
  | ⟨3, _⟩ => exact (rotLow_at x0 _).trans (congrArg rotLow (colW x0 r))
  | ⟨4, _⟩ => exact (rotDiag_at x0 _).trans (congrArg rotDiag (colW x0 r))
  | ⟨5, _⟩ => exact (trY_at x0 _).trans (by rw [colX, colY, colW]; rfl)
  | ⟨6, _⟩ => exact zero_at (ix1 r)
  | ⟨7, _⟩ => exact zero_at (ix1 r)
  | ⟨8, _⟩ => exact one_at (ix1 r)

/-- The stored block is the array of matrices of the loaded block's rows. -/
theorem block_eq : out0_1 x0 = mats (n := 2048) x0 := by
  funext j
  obtain ⟨r, k, rfl⟩ : ∃ (r : Fin 2048) (k : Fin 9), j = ix2 r k := ⟨j 0, j 1, eq_ix2 j⟩
  exact block_apply x0 r k

end Cert.KernelIdeal.Block

end
-- ==== Proof.KernelArray.lean ====
/-
  From blocks to the array, and through the final reshape.

  Grid point `t` of 4096 stages rows `2048·t … 2048·t + 2047` of the argument and writes back the same rows of the
  8388608×9 output. The matrix of a row depends on that row alone, so the block point `t` writes back is the block of
  ONE array — the array of matrices of the argument's rows — and the 4096 blocks tile the output: after the last
  point the output array is `Se2Exp.mats` of the argument. The program then reshapes it to 8388608×3×3, which moves
  no element in row-major order.
-/
import proofs.«113535_j66649302499847_2_alg».proof.Proof.KernelBlock
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat)
open Cert.Se2Exp

variable (m : (ℓ : Loc nD τ sig) → Buf (Elt Ideal) ℓ) (ρ : Dev nD → PrngReg)

/-- The matrices of a block of rows are that block of the matrices of all rows: if the rows of `blk` at `j`'s row are
    the rows of `arr` at `i`'s row, and `j`, `i` name the same entry of the matrix, the two arrays of matrices agree
    there. -/
theorem mats_rows {n N : ℕ} (blk : (⟨2, ![n, 3]⟩ : Shape).Idx → EReal) (arr : (⟨2, ![N, 3]⟩ : Shape).Idx → EReal)
    (j : (⟨2, ![n, 9]⟩ : Shape).Idx) (i : (⟨2, ![N, 9]⟩ : Shape).Idx)
    (hrow : ∀ q : Fin 3, blk (ix2 (j 0) q) = arr (ix2 (i 0) q)) (hcol : (j 1).val = (i 1).val) :
    mats blk j = mats arr i := by
  unfold mats
  rw [hrow 0, hrow 1, hrow 2, hcol]

/-- The printed index maps, decided over the grid: at point `t` both windows are on row block `t`, column block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the array of matrices of the argument's rows. -/
theorem flushed_eq (c : Dev nD) (t : Fin cfg0.N) :
    (dats m 0 c).flushed 1 t = ((cfg0.win 1).blk t).view.read (Elt Ideal) (mats (n := 8388608) (V m c main_arg0)) := by
  show (cfg0.win 1).cut (grid0.coords t) ((dats m 0 c).after 1 t) = _
  rw [after0_1, Block.block_eq (iblk m c 0 t)]
  obtain ⟨e0, e1, e2, e3⟩ := idx_facts t
  funext j
  refine mats_rows (n := 2048) (N := 8388608) (iblk m c 0 t) (V m c main_arg0) j (((cfg0.win 1).blk t).view.emb j) (fun q => ?_) ?_
  · show V m c main_arg0 (((cfg0.win 0).blk t).view.emb (ix2 (j 0) q)) = V m c main_arg0 (ix2 ((((cfg0.win 1).blk t).view.emb j) 0) q)
    refine congrArg (V m c main_arg0) (funext fun a => Fin.ext ?_)
    match a with
    | ⟨0, _⟩ =>
      show win0_0.index t (0 : Fin 2) * 2048 + 1 * (j 0).val = win0_1.index t (0 : Fin 2) * 2048 + 1 * (j 0).val
      rw [e0, e2]
    | ⟨1, _⟩ =>
      show win0_0.index t (1 : Fin 2) * 3 + 1 * q.val = q.val
      rw [e1]; omega
  · show (j 1).val = win0_1.index t (1 : Fin 2) * 9 + 1 * (j 1).val
    rw [e3]; omega

/-- An index of the output array is in point `t`'s block iff each coordinate is in the block's range on its axis. -/
theorem mem_blk (t : Fin cfg0.N) (i : S8388608x9.Idx) :
    i ∈ ((cfg0.win 1).blk t).view.set ↔ ∀ a : Fin 2, win0_1.index t a * S2048x9.size a ≤ (i a).val
      ∧ (i a).val < win0_1.index t a * S2048x9.size a + S2048x9.size a := by
  show i ∈ ((View.whole main_v0).slice (win0_1.rect t)).set ↔ _
  rw [View.set_slice_whole, Rect.mem_set_unit]
  exact Iff.rfl

/-- Every index of the output array is in some point's block: row `r` is written by point `r / 2048`. -/
theorem cover (i : S8388608x9.Idx) :
    ∃ t : Fin cfg0.N, (cfg0.win 1).flush t = true ∧ i ∈ ((cfg0.win 1).blk t).view.set := by
  have hN : cfg0.N = 4096 := N_0
  have hi0 : (i 0).val < 8388608 := (i 0).isLt
  have hi1 : (i 1).val < 9 := (i 1).isLt
  have ht : (i 0).val / 2048 < cfg0.N := by rw [hN]; omega
  refine ⟨⟨(i 0).val / 2048, ht⟩, flush0_1 _, ?_⟩
  rw [mem_blk]
  obtain ⟨-, -, e2, e3⟩ := idx_facts ⟨(i 0).val / 2048, ht⟩
  intro a
  match a with
  | ⟨0, _⟩ =>
    show win0_1.index ⟨(i 0).val / 2048, ht⟩ (0 : Fin 2) * 2048 ≤ (i 0).val
      ∧ (i 0).val < win0_1.index ⟨(i 0).val / 2048, ht⟩ (0 : Fin 2) * 2048 + 2048
    rw [e2]
    show (i 0).val / 2048 * 2048 ≤ (i 0).val ∧ (i 0).val < (i 0).val / 2048 * 2048 + 2048
    omega
  | ⟨1, _⟩ =>
    show win0_1.index ⟨(i 0).val / 2048, ht⟩ (1 : Fin 2) * 9 ≤ (i 1).val
      ∧ (i 1).val < win0_1.index ⟨(i 0).val / 2048, ht⟩ (1 : Fin 2) * 9 + 9
    rw [e3]
    omega

/-- The output array after the last point: the matrices of the argument's rows. -/
theorem final (c : Dev nD) : (dats m 0 c).arrAt 1 cfg0.N = mats (n := 8388608) (V m c main_arg0) :=
  (dats m 0 c).arrAt_eq_of_cover 1 (mats (n := 8388608) (V m c main_arg0)) (fun t _ => flushed_eq m c t) cover

end Cert.KernelIdeal.Whole

end
-- ==== Proof.KernelRun.lean ====
/-
  The idealized kernel's whole run, read as a value.

  After the grid the program's one remaining operation reshapes the 8388608×9 output array to 8388608×3×3. The
  generated frame run states the result buffer as that operation applied to the memory the region leaves, in which
  the output array is what the 4096 write-backs made it (`Whole.final`): so the result is the reshape of the array of
  matrices of the argument's rows, and the argument is unchanged.
-/
import proofs.«113535_j66649302499847_2_alg».proof.Proof.KernelArray
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Se2Exp

variable (m : (ℓ : Loc nD τ sig) → Buf (Elt Ideal) ℓ) (ρ : Dev nD → PrngReg)

/-- The memory the region leaves holds, at the output array, the matrices of the argument's rows. -/
theorem region_out (c : Dev nD) :
    Pipeline.withArrays (cfgs 0).spec c (V0 m c) (fun w => (dats m 0 c).arrAt w (cfgs 0).N) (Proc.devRef .tc main_v0)
      = mats (n := 8388608) (m ((c : Thread nD τ).loc main_arg0)) :=
  (Pipeline.withArrays_arr spec0 launch0.win.arr_inj c _ _ 1).trans
    ((final m c).trans (congrArg (mats (n := 8388608)) (V_main_arg0 m c)))

/-- The result buffer after the reshape that follows the region. -/
theorem tail_eq (c : Dev nD) :
    Pipeline.afterTail₀ cfgs (dats m) 0 (V0 m) [hostOps1] c main_v1
      = shapeCast S8388608x3x3 (mats (n := 8388608) (m ((c : Thread nD τ).loc main_arg0))) shapeCasts_S8388608x9_S8388608x3x3 := by
  unfold Pipeline.afterTail₀
  show StableHlo.after hostOps1 _ (Proc.devRef .tc main_v1) = _
  after_results
  show shapeCast S8388608x3x3
      (Pipeline.withArrays (cfgs 0).spec c (V0 m c) (fun w => (dats m 0 c).arrAt w (cfgs 0).N) (Proc.devRef .tc main_v0))
      shapeCasts_S8388608x9_S8388608x3x3 = _
  rw [region_out]

/-- The result buffer is no array of the pipeline and is not scoped: the frame run states it through the tail. -/
theorem result_mem : main_v1 ∈ Pipeline.restRefs sig (cfgs 0).spec :=
  Pipeline.mem_restRefs_of main_v1 rfl (fun w => by fin_cases w <;> decide)

/-- Every weakly fair execution of the idealized kernel's program terminates with the result buffer at the reshaped
    array of matrices of the argument's rows, the argument unchanged. -/
theorem run : θ_run defs (onTc (τ := τ) (main (F := Ideal))) ⟨m, fun _ => 0, ρ⟩ fun r => ∀ c : Dev nD,
      r.2.mem ((c.tc : Thread nD τ).loc main_v1)
        = shapeCast S8388608x3x3 (mats (n := 8388608) (m ((c.tc : Thread nD τ).loc main_arg0))) shapeCasts_S8388608x9_S8388608x3x3
      ∧ r.2.mem ((c.tc : Thread nD τ).loc main_arg0) = m ((c.tc : Thread nD τ).loc main_arg0) :=
  (θ_run defs _ _).mono (fun r h c => ⟨((h c).2 main_v1 result_mem).trans (tail_eq m c),
      ((h c).1 0).trans (((dats m 0 c).arrAt_in 0 rfl _).trans ((A_eq m c 0).trans (V_main_arg0 m c)))⟩)
    (run_main m ρ)

end Cert.KernelIdeal.Whole

end
-- ==== Proof.RefValue.lean ====
/-
  What the reference computes, read at an index.

  The reference takes the three columns of the 8388608×3 argument apart, computes the nine matrix entries of every row
  with the host's pointwise operations, joins them three at a time into the rows `[r00, r01, tX]`, `[r10, r00, tY]`,
  `[0, 0, 1]` (three 8388608×3 arrays), and stacks those along a new middle axis. So entry `(b, i, q)` of its
  8388608×3×3 result is entry `3·i + q` of the matrix of row `b`. The host's square root, sine, cosine, quotient and
  negation are, on the extended reals, the same functions the formulas of `Se2Exp` are written with, so each stage is
  its formula by unfolding.
-/
import proofs.«113535_j66649302499847_2_alg».proof.Proof.Gen.ReferenceIdeal.Read
import proofs.«113535_j66649302499847_2_alg».proof.Proof.Se2Exp
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Se2Exp

variable (X : (⟨S8388608x3, .f32⟩ : BufTy).Contents (Elt Ideal))

/-! ## The three columns of the argument -/

theorem colX (b : Fin 8388608) : val_main_v1 (F := Ideal) X (ix1 b) = X (ix2 b 0) := by
  rw [val_main_v1_apply, val_main_v0_apply]
  refine congrArg X (funext fun a => Fin.ext ?_)
  match a with
  | ⟨0, _⟩ => show b.val / 1 = b.val; omega
  | ⟨1, _⟩ => rfl

theorem colY (b : Fin 8388608) : val_main_v3 (F := Ideal) X (ix1 b) = X (ix2 b 1) := by
  rw [val_main_v3_apply, val_main_v2_apply]
  refine congrArg X (funext fun a => Fin.ext ?_)
  match a with
  | ⟨0, _⟩ => show b.val / 1 = b.val; omega
  | ⟨1, _⟩ => rfl

theorem colW (b : Fin 8388608) : val_main_v5 (F := Ideal) X (ix1 b) = X (ix2 b 2) := by
  rw [val_main_v5_apply, val_main_v4_apply]
  refine congrArg X (funext fun a => Fin.ext ?_)
  match a with
  | ⟨0, _⟩ => show b.val / 1 = b.val; omega
  | ⟨1, _⟩ => rfl

/-! ## The host's arithmetic, entry by entry -/

section Pointwise
variable (i : S8388608.Idx)

theorem rotDiag_at : val_main_v25 (F := Ideal) X i = rotDiag (val_main_v5 (F := Ideal) X i) := rfl
theorem rotUp_at : val_main_v27 (F := Ideal) X i = rotUp (val_main_v5 (F := Ideal) X i) := rfl
theorem rotLow_at : val_main_v28 (F := Ideal) X i = rotLow (val_main_v5 (F := Ideal) X i) := rfl
theorem trX_at : val_main_v37 (F := Ideal) X i
    = trX (val_main_v1 (F := Ideal) X i) (val_main_v3 (F := Ideal) X i) (val_main_v5 (F := Ideal) X i) := rfl
theorem trY_at : val_main_v40 (F := Ideal) X i
    = trY (val_main_v1 (F := Ideal) X i) (val_main_v3 (F := Ideal) X i) (val_main_v5 (F := Ideal) X i) := rfl
theorem zero_at : val_main_v41 (F := Ideal) i = zero := rfl
theorem one_at : val_main_v42 (F := Ideal) i = one := rfl

end Pointwise

/-! ## Layout: a vector as a column, three columns side by side, a matrix as a slab, three slabs stacked -/

/-- The index of a column's entry `(b, 0)` in the vector it was broadcast from. -/
theorem idx_col (b : Fin 8388608) : idx_main_v43 (ix2 b (0 : Fin 1)) = ix1 b :=
  funext fun a => match a with | ⟨0, _⟩ => rfl

/-- The index of a slab's entry `(b, 0, q)` in the matrix it was broadcast from. -/
theorem idx_slab (b : Fin 8388608) (q : Fin 3) : idx_main_v55 (ix3 b (0 : Fin 1) q) = ix2 b q :=
  funext fun a => match a with | ⟨0, _⟩ => rfl | ⟨1, _⟩ => rfl

/-- Three 8388608×1 columns joined along the second axis: entry `(b, q)` is entry `(b, 0)` of column `q`. -/
theorem columns3_apply {α : Type} (p : Fin 3 → (S8388608x1.Idx → α))
    (h : Shape.Concatenates [S8388608x1, S8388608x1, S8388608x1] S8388608x3 1) (b : Fin 8388608) (q : Fin 3) :
    concatenate S8388608x3 1 [⟨S8388608x1, p 0⟩, ⟨S8388608x1, p 1⟩, ⟨S8388608x1, p 2⟩] h (ix2 b q) = p q (ix2 b (0 : Fin 1)) :=
  concatenate_ofFn_unit_apply (t := S8388608x3) (s₁ := S8388608x1) 1 p h rfl rfl (ix2 b q) q rfl (ix2 b (0 : Fin 1))
    (fun c hc => match c with
      | ⟨0, _⟩ => rfl
      | ⟨1, _⟩ => absurd rfl hc)

/-- Three 8388608×1×3 slabs joined along the middle axis: entry `(b, i, q)` is entry `(b, 0, q)` of slab `i`. -/
theorem slabs3_apply {α : Type} (p : Fin 3 → (S8388608x1x3.Idx → α))
    (h : Shape.Concatenates [S8388608x1x3, S8388608x1x3, S8388608x1x3] S8388608x3x3 1) (b : Fin 8388608) (i q : Fin 3) :
    concatenate S8388608x3x3 1 [⟨S8388608x1x3, p 0⟩, ⟨S8388608x1x3, p 1⟩, ⟨S8388608x1x3, p 2⟩] h (ix3 b i q)
      = p i (ix3 b (0 : Fin 1) q) :=
  concatenate_ofFn_unit_apply (t := S8388608x3x3) (s₁ := S8388608x1x3) 1 p h rfl rfl (ix3 b i q) i rfl (ix3 b (0 : Fin 1) q)
    (fun c hc => match c with
      | ⟨0, _⟩ => rfl
      | ⟨1, _⟩ => absurd rfl hc
      | ⟨2, _⟩ => rfl)

/-! ## The three rows of matrices -/

/-- The first rows `[r00, r01, tX]`. -/
theorem row0_apply (b : Fin 8388608) (q : Fin 3) :
    val_main_v46 (F := Ideal) X (ix2 b q) = entry (X (ix2 b 0)) (X (ix2 b 1)) (X (ix2 b 2)) (3 * 0 + q.val) := by
  unfold val_main_v46
  refine (columns3_apply ![val_main_v43 (F := Ideal) X, val_main_v44 (F := Ideal) X, val_main_v45 (F := Ideal) X] _ b q).trans ?_
  match q with
  | ⟨0, _⟩ =>
    refine (val_main_v43_apply X _).trans ((congrArg (val_main_v25 (F := Ideal) X) (idx_col b)).trans ?_)
    exact (rotDiag_at X _).trans (congrArg rotDiag (colW X b))
  | ⟨1, _⟩ =>
    refine (val_main_v44_apply X _).trans ((congrArg (val_main_v27 (F := Ideal) X) (idx_col b)).trans ?_)
    exact (rotUp_at X _).trans (congrArg rotUp (colW X b))
  | ⟨2, _⟩ =>
    refine (val_main_v45_apply X _).trans ((congrArg (val_main_v37 (F := Ideal) X) (idx_col b)).trans ?_)
    exact (trX_at X _).trans (by rw [colX, colY, colW]; rfl)

/-- The second rows `[r10, r00, tY]`. -/
theorem row1_apply (b : Fin 8388608) (q : Fin 3) :
    val_main_v50 (F := Ideal) X (ix2 b q) = entry (X (ix2 b 0)) (X (ix2 b 1)) (X (ix2 b 2)) (3 * 1 + q.val) := by
  unfold val_main_v50
  refine (columns3_apply ![val_main_v47 (F := Ideal) X, val_main_v48 (F := Ideal) X, val_main_v49 (F := Ideal) X] _ b q).trans ?_
  match q with
  | ⟨0, _⟩ =>
    refine (val_main_v47_apply X _).trans ((congrArg (val_main_v28 (F := Ideal) X) (idx_col b)).trans ?_)
    exact (rotLow_at X _).trans (congrArg rotLow (colW X b))
  | ⟨1, _⟩ =>
    refine (val_main_v48_apply X _).trans ((congrArg (val_main_v25 (F := Ideal) X) (idx_col b)).trans ?_)
    exact (rotDiag_at X _).trans (congrArg rotDiag (colW X b))
  | ⟨2, _⟩ =>
    refine (val_main_v49_apply X _).trans ((congrArg (val_main_v40 (F := Ideal) X) (idx_col b)).trans ?_)
    exact (trY_at X _).trans (by rw [colX, colY, colW]; rfl)

/-- The third rows `[0, 0, 1]`. -/
theorem row2_apply (b : Fin 8388608) (q : Fin 3) :
    val_main_v54 (F := Ideal) (ix2 b q) = entry (X (ix2 b 0)) (X (ix2 b 1)) (X (ix2 b 2)) (3 * 2 + q.val) := by
  unfold val_main_v54
  refine (columns3_apply ![val_main_v51 (F := Ideal), val_main_v52 (F := Ideal), val_main_v53 (F := Ideal)] _ b q).trans ?_
  match q with
  | ⟨0, _⟩ => exact (val_main_v51_apply (F := Ideal) (ix2 b (0 : Fin 1))).trans (zero_at _)
  | ⟨1, _⟩ => exact (val_main_v52_apply (F := Ideal) (ix2 b (0 : Fin 1))).trans (zero_at _)
  | ⟨2, _⟩ => exact (val_main_v53_apply (F := Ideal) (ix2 b (0 : Fin 1))).trans (one_at _)

/-! ## The result -/

/-- Entry `(b, i, q)` of the reference's result is entry `3·i + q` of the matrix of row `b` of the argument. -/
theorem ref_apply (b : Fin 8388608) (i q : Fin 3) :
    val_main_v58 (F := Ideal) X (ix3 b i q) = entry (X (ix2 b 0)) (X (ix2 b 1)) (X (ix2 b 2)) (3 * i.val + q.val) := by
  unfold val_main_v58
  refine (slabs3_apply ![val_main_v55 (F := Ideal) X, val_main_v56 (F := Ideal) X, val_main_v57 (F := Ideal)] _ b i q).trans ?_
  match i with
  | ⟨0, _⟩ => exact (val_main_v55_apply X _).trans ((congrArg (val_main_v46 (F := Ideal) X) (idx_slab b q)).trans (row0_apply X b q))
  | ⟨1, _⟩ => exact (val_main_v56_apply X _).trans ((congrArg (val_main_v50 (F := Ideal) X) (idx_slab b q)).trans (row1_apply X b q))
  | ⟨2, _⟩ => exact (val_main_v57_apply _).trans ((congrArg (val_main_v54 (F := Ideal)) (idx_slab b q)).trans (row2_apply X b q))

end Cert.ReferenceIdeal.RefValue

end
-- ==== Proof.Bridge.lean ====
/-
  The two results are one array.

  The kernel's program ends with the 8388608×9 array of matrices reshaped to 8388608×3×3; the reference builds the
  8388608×3×3 array directly. A reshape keeps row-major positions, and position `(b, i, q)` of the second shape is
  position `(b, 3·i + q)` of the first; there the first array holds entry `3·i + q` of the matrix of row `b`, which
  is what the reference's result holds at `(b, i, q)`.
-/
import proofs.«113535_j66649302499847_2_alg».proof.Proof.Se2Exp
import proofs.«113535_j66649302499847_2_alg».proof.Proof.RefValue
import Idealize.ShloMosaic.Lib.Pipeline.Value
import Idealize.ShloMosaic.Lib.ValueIdx

noncomputable section

namespace Cert.Proof.Bridge

open Idealize.ShloMosaic Idealize.ShloMosaic.ValueIdx
open Cert.Se2Exp

/-- The array of matrices of the rows of `X`, reshaped to 8388608×3×3, is the reference's result on `X`. -/
theorem result_eq (X : (⟨2, ![8388608, 3]⟩ : Shape).Idx → EReal)
    (h : (⟨2, ![8388608, 9]⟩ : Shape).ShapeCasts ⟨3, ![8388608, 3, 3]⟩) :
    shapeCast (⟨3, ![8388608, 3, 3]⟩ : Shape) (mats (n := 8388608) X) h
      = Cert.ReferenceIdeal.Read.val_main_v58 (F := Ideal) X := by
  funext j
  obtain ⟨b, i, q, rfl⟩ : ∃ (b : Fin 8388608) (i q : Fin 3), j = ix3 b i q := ⟨j 0, j 1, j 2, eq_ix3 j⟩
  have hi : i.val < 3 := i.isLt
  have hq : q.val < 3 := q.isLt
  have hk : 3 * i.val + q.val < 9 := by omega
  refine (shapeCast_apply _ h (ix3 b i q) (ix2 b (⟨3 * i.val + q.val, hk⟩ : Fin 9)) ?_).trans ?_
  · rw [Shape.rowMajor_val_two, Shape.rowMajor_val_three]
    show b.val * 9 + (3 * i.val + q.val) = (b.val * 3 + i.val) * 3 + q.val
    omega
  · exact (mats_apply X b ⟨3 * i.val + q.val, hk⟩).trans (Cert.ReferenceIdeal.RefValue.ref_apply X b i q).symm

end Cert.Proof.Bridge

end
-- ==== Proof.lean ====
/-
  The SE(2) exponential map, row by row: a tiled kernel against the plain array program.

  Both programs send every row `(x, y, w)` of an 8388608×3 array to the 3×3 matrix
  `[[1 − B·θ², −A·w, tX], [A·w, 1 − B·θ², tY], [0, 0, 1]]` with `θ² = w·w`, `θ = √θ²`, `A = sin θ / (θ + ε)`,
  `B = (1 − cos θ) / (θ² + ε)`, `C = (1 − A) / (θ² + ε)` and `(tX, tY) = [[1 − C·θ², −B·w], [B·w, 1 − C·θ²]] · (x, y)`
  (`Proof/Se2Exp.lean`). The kernel works on blocks of 2048 rows, writes the nine entries of a row's matrix side by side
  as one row of an 8388608×9 array, and the program reshapes that array to 8388608×3×3; the reference builds the three
  rows of every matrix as three 8388608×3 arrays and stacks them. Over the extended reals the two agree entry by entry:
  the square root, sine, cosine and quotient of the two sides are the same functions, the constants are the same words,
  and the only difference in the arithmetic is that the kernel writes a negation as `0 − a`, which is `−a` on every
  extended real. No finiteness of the input is needed for the equality.

  * `Proof/KernelBlock.lean`: what the kernel body stores is the array of matrices of the rows it loaded.
  * `Proof/KernelArray.lean`: the 4096 blocks tile the output, which ends as the array of matrices of all rows.
  * `Proof/KernelRun.lean`: the program's run with its result buffer at the reshape of that array.
  * `Proof/RefValue.lean`: entry `(b, i, q)` of the reference's result is entry `3·i + q` of row `b`'s matrix.
  * `Proof/Bridge.lean`: the reshape of the array of matrices is the reference's result.
-/
import proofs.«113535_j66649302499847_2_alg».proof.Defs
import proofs.«113535_j66649302499847_2_alg».proof.Proof.Gen.Kernel
import proofs.«113535_j66649302499847_2_alg».proof.Proof.Gen.Kernel.Frame
import proofs.«113535_j66649302499847_2_alg».proof.Proof.Gen.KernelIdeal
import proofs.«113535_j66649302499847_2_alg».proof.Proof.Gen.KernelIdeal.Frame
import proofs.«113535_j66649302499847_2_alg».proof.Proof.Gen.ReferenceIdeal
import proofs.«113535_j66649302499847_2_alg».proof.Proof.Gen.Pre_finite_inputs
import proofs.«113535_j66649302499847_2_alg».proof.Proof.Gen.ReferenceIdeal.Run
import proofs.«113535_j66649302499847_2_alg».proof.Proof.Gen.ReferenceIdeal.Read
import proofs.«113535_j66649302499847_2_alg».proof.Proof.KernelRun
import proofs.«113535_j66649302499847_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel terminates without a fault and leaves its argument as it was. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of array operations: it terminates with its argument unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the argument, both idealized programs end with the same 8388608×3×3 array: the array
    of matrices of the argument's rows, reshaped. -/
theorem algebraic : Cert.algebraic_KernelIdeal_ReferenceIdeal := by
  intro m ρ m' ρ' _ hagree
  refine ⟨fun c => shapeCast Cert.KernelIdeal.S8388608x3x3
      (Cert.Se2Exp.mats (n := 8388608) (m ((c.tc : Thread Cert.KernelIdeal.nD Cert.KernelIdeal.τ).loc Cert.KernelIdeal.main_arg0)))
      Cert.KernelIdeal.Gen.shapeCasts_S8388608x9_S8388608x3x3,
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, hagree c]
  exact (Cert.Proof.Bridge.result_eq _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
